-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x256 .f32) (main_arg9 : FVec F S40 .f32) (main_v33 : IVec S_ 1) : IVec S_ 1 :=
  let main_v34 : FVec F S40x256 .f32 := Host.absf main_arg8
  let main_cst_12 : FVec F S_ .f32 := constant S_ .f32 0x7F800000#32
  let main_v35 : FVec F S40x256 .f32 := broadcastInDim S40x256 ![] bcast_S_S40x256 main_cst_12
  let main_v36 : IVec S40x256 1 := cmpf .olt main_v34 main_v35
  let main_c_13 : IVec S_ 1 := constantI S_ 1 1#1
  let main_v37 : IVec S_ 1 := (fun x v => Host.reduce IntOp.andi x v reducesTo_S40x256_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S40x256 .f32) (main_arg9 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S40x256 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S128x256 : Shape := ⟨2, ![128, 256]⟩
abbrev S1x256 : Shape := ⟨2, ![1, 256]⟩
abbrev S800000x256 : Shape := ⟨2, ![800000, 256]⟩
abbrev S50000x40 : Shape := ⟨2, ![50000, 40]⟩
abbrev S2000x40 : Shape := ⟨2, ![2000, 40]⟩
abbrev S256x40 : Shape := ⟨2, ![256, 40]⟩
abbrev S1x40 : Shape := ⟨2, ![1, 40]⟩

abbrev nBuf : Space → Nat
  | .hbm => 73
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S40x256, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x800000, .i32⟩
  | .hbm, ⟨42, _⟩ => ⟨S800000, .i32⟩
  | .hbm, ⟨43, _⟩ => ⟨S1x800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S256, .f32⟩
  | .local _ .vmem, ⟨6, _⟩ => ⟨S256x128, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S40x256, .f32⟩
  | .local _ .vmem, ⟨21, _⟩ => ⟨S40, .f32⟩
  | .local _ .vmem, ⟨22, _⟩ => ⟨S2000x40, .f32⟩
  | .local _ .vmem, ⟨23, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_call1_v0 : Ref sig .tc := ⟨.hbm, 65, rfl⟩
abbrev main_call1_v1 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S40x256_S40x256_0_0 : ∀ a, (![0, 0] : Fin 2 → Nat) a + S40x256.size a ≤ S40x256.size a
  h_S40x256 : 0 < S40x256.numel
  transposes_S40x256_p1_0_S256x40 : S40x256.Transposes [1, 0] S256x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40x256.size a ≤ S40x256.size a
  hwx2_1 : ∀ i : grid2.Coords, EltTy.bits .f32 = 32 ∨ (Rect.block (s := S40x256) S40x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S40.size a ≤ S40.size a
  hwx2_2 : ∀ i : grid2.Coords, EltTy.bits .f32 = 32 ∨ (Rect.block (s := S40) S40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S40x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x40 : Shape := ⟨2, ![256, 40]⟩
abbrev S50000x40 : Shape := ⟨2, ![50000, 40]⟩
abbrev S1x40 : Shape := ⟨2, ![1, 40]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S40x256, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S128x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S1x800000, .i32⟩
  | .hbm, ⟨52, _⟩ => ⟨S800000, .i32⟩
  | .hbm, ⟨53, _⟩ => ⟨S1x800000, .i32⟩
  | .hbm, ⟨54, _⟩ => ⟨S800000, .i32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x256, .f32⟩
  | .hbm, ⟨80, _⟩ => ⟨S50000x256, .f32⟩
  | .hbm, ⟨81, _⟩ => ⟨S256x256, .f32⟩
  | .hbm, ⟨82, _⟩ => ⟨S50000x256, .f32⟩
  | .hbm, ⟨83, _⟩ => ⟨S1x256, .f32⟩
  | .hbm, ⟨84, _⟩ => ⟨S50000x256, .f32⟩
  | .hbm, ⟨85, _⟩ => ⟨S50000x256, .f32⟩
  | .hbm, ⟨86, _⟩ => ⟨S256x256, .f32⟩
  | .hbm, ⟨87, _⟩ => ⟨S50000x256, .f32⟩
  | .hbm, ⟨88, _⟩ => ⟨S50000x256, .f32⟩
  | .hbm, ⟨89, _⟩ => ⟨S_, .f32⟩
  | .hbm, ⟨90, _⟩ => ⟨S50000x256, .f32⟩
  | .hbm, ⟨91, _⟩ => ⟨S50000x256, .f32⟩
  | .hbm, ⟨92, _⟩ => ⟨S256x40, .f32⟩
  | .hbm, ⟨93, _⟩ => ⟨S50000x40, .f32⟩
  | .hbm, ⟨94, _⟩ => ⟨S1x40, .f32⟩
  | .hbm, ⟨95, _⟩ => ⟨S50000x40, .f32⟩
  | .hbm, ⟨96, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call3_cst : Ref sig .tc := ⟨.hbm, 89, rfl⟩
abbrev main_call3_v0 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S40x256_S256x40_1_0 : S40x256.Transposes [1, 0] S256x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KRun.lean ====
/-
  The kernel program's run with its RESULT named.

  The program is three grids of kernel calls among stretches of host operations.  Every weakly fair execution from a
  memory with zero semaphore counters terminates without a fault; the final memory holds, at every buffer no call
  scopes, the contents obtained by folding the program's segments over the launch memory: a host stretch rewrites the
  buffers its operations write, a grid of calls leaves each of its output arrays at what its blocks wrote back.  Read at
  the result buffer this names the result; read at an argument buffer the fold walks back to the launch contents.
-/
import proofs.«140325_j19155554140461_1_alg».proof.Proof.Gen.KernelIdeal.Frame

set_option maxRecDepth 16384

noncomputable section

namespace Cert.Sage.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting; the result buffer ends at the fold of the program's
    segments read there, and every argument array as launched. -/
theorem run_value : θ_run defs (onTc (τ := τ) (main (F := F))) ⟨m, fun _ => 0, ρ⟩ (fun r => ∀ c : Dev nD,
      r.2.mem ((c.tc : Thread nD τ).loc main_v46) = W9 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v46 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.Sage.KRun

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibRowsDot.lean ====
/-
  A product of an `[n, ci]` array by the TRANSPOSE of a `[co, ci]` array, read at an output index `(p, e)` on the extended
  reals as the rows-against-rows sum `∑ₖ A[p, k] · W[e, k]`.

  Weights stored output-major (`[co, ci]`, as a linear layer's usually are) enter a kernel as `x · wᵀ`: the body
  transposes the weight array and takes an ordinary rows-by-columns matrix product into a zero accumulator.  The
  transposition swaps the two coordinates of the right operand and the product contracts the left operand's second axis
  with the transposed array's first, so the entry `(p, e)` is row `p` of the left operand against row `e` of the array
  that was transposed — whatever the two operands' float formats.  The dimension numbers enter only through four
  facts: where they send an output index and a contraction index in each operand.
-/
import Idealize.ShloMosaic.PureOps.Ideal
import Idealize.ShloMosaic.PureOps.Ideal.Laws
import Idealize.ShloMosaic.Lib.ValueIdx
import Idealize.ShloMosaic.Lib.Pipeline.Value
import proofs.«140325_j19155554140461_1_alg».proof.Proof.LibDot

noncomputable section

open scoped BigOperators

namespace Cert.LibRowsDot

open Idealize.ShloMosaic Idealize.ShloMosaic.ValueIdx

variable {n ci co : ℕ}

/-- Row `p` of `A` against row `e` of `W`: the sum over the shared last axis. -/
def rowsDot {φ₁ φ₂ : FTy} (A : FVec Ideal ⟨2, ![n, ci]⟩ φ₁) (W : FVec Ideal ⟨2, ![co, ci]⟩ φ₂) (p : Fin n) (e : Fin co) : EReal :=
  ∑ k : Fin ci, A (ix2 p k) * W (ix2 e k)

/-- A matrix product into the zero accumulator whose right operand is the TRANSPOSED `[co, ci]` array, at `(p, e)`:
    row `p` of the left operand against row `e` of the array that was transposed. -/
theorem matmul_transposed_apply {φ₁ φ₂ : FTy} (D : DotDims ⟨2, ![n, ci]⟩ ⟨2, ![ci, co]⟩ ⟨2, ![n, co]⟩)
    (hr : D.contr.rank = 1) (hs : D.contr.size ⟨0, by omega⟩ = ci)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![n, ci]⟩ φ₁) (W : FVec Ideal ⟨2, ![co, ci]⟩ φ₂)
    (htr : (⟨2, ![co, ci]⟩ : Shape).Transposes [1, 0] ⟨2, ![ci, co]⟩) (p : Fin n) (e : Fin co) :
    FloatOps.matmul D prec A (transpose ⟨2, ![ci, co]⟩ [1, 0] W htr) (constant ⟨2, ![n, co]⟩ .f32 0x00000000#32) (ix2 p e)
      = rowsDot A W p e := by
  refine (Cert.LibDot.matmul_zero_apply D hr hs hl0 hl1 hr0 hr1 prec A _ p e).trans ?_
  unfold rowsDot
  refine Finset.sum_congr rfl fun k _ => ?_
  rw [transpose_apply [1, 0] W htr (ix2 k e) (ix2 e k) (fun b => match b with
    | ⟨0, _⟩ => rfl
    | ⟨1, _⟩ => rfl)]

end Cert.LibRowsDot

end
-- ==== Proof.Dense.lean ====
/-
  One dense layer of a mean-aggregating graph convolution, and the linear head, as functions of whole arrays read
  index by index on the extended reals.

  For a node array `a` (the neighbours' mean) and `x` (the node's own features), both `[n, ci]`, two weight arrays
  `wl`, `wr` of shape `[co, ci]` and a bias `b` of `co` entries, the layer's entry `(p, e)` is
      max ((∑ₖ a[p,k]·wl[e,k] + ∑ₖ x[p,k]·wr[e,k]) + b[e]) 0,
  each product a contraction of a ROW of the node array with a ROW of the weight array (the weights are stored
  output-major, so `· wᵀ` contracts the two last axes).  The head is `∑ₖ z[p,k]·w[e,k] + b[e]`.

  (The row-by-row sum and the matrix product with a transposed right operand that computes it are the general lemmas of
  the module this one imports.)
-/
import Idealize.ShloMosaic.PureOps.Ideal
import Idealize.ShloMosaic.PureOps.Ideal.Laws
import Idealize.ShloMosaic.Lib.ValueIdx
import Idealize.ShloMosaic.Lib.Pipeline.Value
import proofs.«140325_j19155554140461_1_alg».proof.Proof.LibRowsDot

noncomputable section

open scoped BigOperators

namespace Cert.Sage

open Idealize.ShloMosaic Idealize.ShloMosaic.ValueIdx

variable {n ci co : ℕ}

export Cert.LibRowsDot (rowsDot matmul_transposed_apply)

/-- The layer at `(p, e)`. -/
def combineAt (a x : FVec Ideal ⟨2, ![n, ci]⟩ .f32) (wl : FVec Ideal ⟨2, ![co, ci]⟩ .f32) (b : FVec Ideal ⟨1, ![co]⟩ .f32)
    (wr : FVec Ideal ⟨2, ![co, ci]⟩ .f32) (p : Fin n) (e : Fin co) : EReal :=
  max ((rowsDot a wl p e + rowsDot x wr p e) + b (ix1 e)) (Ideal.ofBits .f32 0x00000000#32)

/-- The layer as a whole array: `relu (a · wlᵀ + x · wrᵀ + b)`. -/
def combine (a x : FVec Ideal ⟨2, ![n, ci]⟩ .f32) (wl : FVec Ideal ⟨2, ![co, ci]⟩ .f32) (b : FVec Ideal ⟨1, ![co]⟩ .f32)
    (wr : FVec Ideal ⟨2, ![co, ci]⟩ .f32) : FVec Ideal ⟨2, ![n, co]⟩ .f32 :=
  fun i => combineAt a x wl b wr (i 0) (i 1)

theorem combine_apply (a x : FVec Ideal ⟨2, ![n, ci]⟩ .f32) (wl : FVec Ideal ⟨2, ![co, ci]⟩ .f32) (b : FVec Ideal ⟨1, ![co]⟩ .f32)
    (wr : FVec Ideal ⟨2, ![co, ci]⟩ .f32) (p : Fin n) (e : Fin co) :
    combine a x wl b wr (ix2 p e) = combineAt a x wl b wr p e := rfl

/-- The head at `(p, e)`. -/
def linearAt (z : FVec Ideal ⟨2, ![n, ci]⟩ .f32) (w : FVec Ideal ⟨2, ![co, ci]⟩ .f32) (b : FVec Ideal ⟨1, ![co]⟩ .f32)
    (p : Fin n) (e : Fin co) : EReal :=
  rowsDot z w p e + b (ix1 e)

/-- The head as a whole array: `z · wᵀ + b`. -/
def linear (z : FVec Ideal ⟨2, ![n, ci]⟩ .f32) (w : FVec Ideal ⟨2, ![co, ci]⟩ .f32) (b : FVec Ideal ⟨1, ![co]⟩ .f32) :
    FVec Ideal ⟨2, ![n, co]⟩ .f32 :=
  fun i => linearAt z w b (i 0) (i 1)

theorem linear_apply (z : FVec Ideal ⟨2, ![n, ci]⟩ .f32) (w : FVec Ideal ⟨2, ![co, ci]⟩ .f32) (b : FVec Ideal ⟨1, ![co]⟩ .f32)
    (p : Fin n) (e : Fin co) : linear z w b (ix2 p e) = linearAt z w b p e := rfl

/-- The layer with the bias added BEFORE the second product: the same number, since a sum of three extended reals
    does not depend on the order in which they are added. -/
theorem combineAt_bias_first (a x : FVec Ideal ⟨2, ![n, ci]⟩ .f32) (wl : FVec Ideal ⟨2, ![co, ci]⟩ .f32)
    (b : FVec Ideal ⟨1, ![co]⟩ .f32) (wr : FVec Ideal ⟨2, ![co, ci]⟩ .f32) (p : Fin n) (e : Fin co) :
    max ((rowsDot a wl p e + b (ix1 e)) + rowsDot x wr p e) (Ideal.ofBits .f32 0x00000000#32) = combineAt a x wl b wr p e := by
  unfold combineAt
  rw [add_right_comm]

end Cert.Sage

end
-- ==== Proof.Aggr.lean ====
/-
  The mean aggregation over incoming edges, as ONE function of the node array and the edge list.

  For an edge list `ei : [2, E]` (row 0 the source nodes, row 1 the destination nodes) and a node array `x : [N, C]`:
  the source indices are brought into range the way an array index is (a negative index counts from the end), the
  source rows are gathered, the gathered rows are summed into their destination rows, the number of edges arriving at
  each node is counted the same way (a sum of ones), the count is raised to at least one, and each summed row is
  divided by its count.  Both programs compute exactly this chain of host operations, so nothing below is ever
  opened: the certificate only needs that equal node arrays give equal aggregates.
-/
import proofs.«140325_j19155554140461_1_alg».proof.Proof.Gen.KernelIdeal
import Idealize.ShloMosaic.PureOps.Ideal

noncomputable section

namespace Cert.Sage

open Idealize.ShloMosaic Cert.KernelIdeal Cert.KernelIdeal.Facts₀ Cert.KernelIdeal.Facts

/-- Row `0` of the edge list, as a vector of `E` indices. -/
def edgeRow0 (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row `1` of the edge list: the destination nodes. -/
def edgeRow1 (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The source nodes, a negative index counted from the end, as a column of start indices. -/
def srcIndices (ei : (⟨S2x800000, .i32⟩ : BufTy).Contents (Elt Ideal)) : (⟨S800000x1, .i32⟩ : BufTy).Contents (Elt Ideal) :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32)))
      (edgeRow0 ei))

/-- The destination nodes as a column of scatter indices. -/
def dstIndices (ei : (⟨S2x800000, .i32⟩ : BufTy).Contents (Elt Ideal)) : (⟨S800000x1, .i32⟩ : BufTy).Contents (Elt Ideal) :=
  broadcastInDim S800000x1 ![0] bcast_S800000_S800000x1_0 (edgeRow1 ei)

/-- The number of edges arriving at each node, raised to at least one. -/
def degree (ei : (⟨S2x800000, .i32⟩ : BufTy).Contents (Elt Ideal)) : (⟨S50000, .f32⟩ : BufTy).Contents (Elt Ideal) :=
  maximumf (F := Ideal) (broadcastInDim S50000 ![] bcast_S_S50000 (id (constant (F := Ideal) S_ .f32 0x3F800000#32)))
    (Host.scatterAdd (F := Ideal) scatter_S50000_S800000x1_S800000_n_0_0_1
      (broadcastInDim S50000 ![] bcast_S_S50000 (constant (F := Ideal) S_ .f32 0x00000000#32))
      (dstIndices ei)
      (broadcastInDim S800000 ![] bcast_S_S800000 (constant (F := Ideal) S_ .f32 0x3F800000#32)))

/-- The mean of the source rows arriving at each node, for a node array of 128 columns. -/
def meanAgg128 (x : (⟨S50000x128, .f32⟩ : BufTy).Contents (Elt Ideal)) (ei : (⟨S2x800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (dstIndices ei)
      (Host.gather gather_S50000x128_S800000x1_S800000x128_1_0_n_n_0_1_1128 x (srcIndices ei)))
    (broadcastInDim S50000x128 ![0, 1] bcast_S50000x1_S50000x128_0_1
      (broadcastInDim S50000x1 ![0] bcast_S50000_S50000x1_0 (degree ei)))

/-- The same for a node array of 256 columns. -/
def meanAgg256 (h : (⟨S50000x256, .f32⟩ : BufTy).Contents (Elt Ideal)) (ei : (⟨S2x800000, .i32⟩ : BufTy).Contents (Elt Ideal)) :
    (⟨S50000x256, .f32⟩ : BufTy).Contents (Elt Ideal) :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (dstIndices ei)
      (Host.gather gather_S50000x256_S800000x1_S800000x256_1_0_n_n_0_1_1256 h (srcIndices ei)))
    (broadcastInDim S50000x256 ![0, 1] bcast_S50000x1_S50000x256_0_1
      (broadcastInDim S50000x1 ![0] bcast_S50000_S50000x1_0 (degree ei)))

end Cert.Sage

end
-- ==== Proof.Net.lean ====
/-
  The whole network as ONE function of its ten arguments: two mean-aggregating graph convolutions with a rectifier,
  then a linear head.

      h   = relu (mean_agg(x) · w1lᵀ + x · w1rᵀ + b1l)            [N, 256]
      z   = relu (mean_agg(h) · w2lᵀ + h · w2rᵀ + b2l)            [N, 256]
      out = z · wcᵀ + bc                                          [N, 40]

  Both programs are shown to end at this function of the arguments, so they end at the same array.
-/
import proofs.«140325_j19155554140461_1_alg».proof.Proof.Dense
import proofs.«140325_j19155554140461_1_alg».proof.Proof.Aggr

noncomputable section

namespace Cert.Sage

open Idealize.ShloMosaic Cert.KernelIdeal

/-- The first layer's output. -/
def hidden1 (x : FVec Ideal S50000x128 .f32) (ei : (⟨S2x800000, .i32⟩ : BufTy).Contents (Elt Ideal))
    (w1l : FVec Ideal S256x128 .f32) (b1l : FVec Ideal S256 .f32) (w1r : FVec Ideal S256x128 .f32) : FVec Ideal S50000x256 .f32 :=
  combine (meanAgg128 x ei) x w1l b1l w1r

/-- The second layer's output, from the first's. -/
def hidden2 (h : FVec Ideal S50000x256 .f32) (ei : (⟨S2x800000, .i32⟩ : BufTy).Contents (Elt Ideal))
    (w2l : FVec Ideal S256x256 .f32) (b2l : FVec Ideal S256 .f32) (w2r : FVec Ideal S256x256 .f32) : FVec Ideal S50000x256 .f32 :=
  combine (meanAgg256 h ei) h w2l b2l w2r

/-- The network's result. -/
def net (x : FVec Ideal S50000x128 .f32) (ei : (⟨S2x800000, .i32⟩ : BufTy).Contents (Elt Ideal))
    (w1l : FVec Ideal S256x128 .f32) (b1l : FVec Ideal S256 .f32) (w1r : FVec Ideal S256x128 .f32)
    (w2l : FVec Ideal S256x256 .f32) (b2l : FVec Ideal S256 .f32) (w2r : FVec Ideal S256x256 .f32)
    (wc : FVec Ideal S40x256 .f32) (bc : FVec Ideal S40 .f32) : FVec Ideal S50000x40 .f32 :=
  linear (hidden2 (hidden1 x ei w1l b1l w1r) ei w2l b2l w2r) wc bc

end Cert.Sage

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.KPay.lean ====
/-
  What each kernel body stores, read at one entry of its output block.

  The two convolution bodies load a block of 2000 rows of the aggregated array and of the node array, the two whole
  weight arrays and the bias; round the four matrices to a narrower float format (the identity on the extended reals);
  transpose each weight array; take the two matrix products into a zero accumulator; add them; add the bias repeated
  down the rows; and take the maximum with zero.  At row `p`, column `e` of the block that is the layer's formula
  `Cert.Sage.combineAt` of the loaded blocks.  The head's body is one product plus the bias: `Cert.Sage.linearAt`.

  The products are read through `Cert.Sage.matmul_transposed_apply`; its four hypotheses say where the printed
  dimension numbers send an output index and a contraction index in each operand, and are decided here once per
  record of dimension numbers.
-/
import proofs.«140325_j19155554140461_1_alg».proof.Proof.Gen.KernelIdeal.Skeleton
import proofs.«140325_j19155554140461_1_alg».proof.Proof.Dense
import proofs.«140325_j19155554140461_1_alg».proof.Proof.LibCols

noncomputable section

open scoped BigOperators

namespace Cert.Sage.KPay

open Idealize.ShloMosaic Idealize.ShloMosaic.ValueIdx Cert.KernelIdeal Cert.KernelIdeal.Gen Cert.KernelIdeal.Facts₀ Cert.KernelIdeal.Facts

/-! ## The printed dimension numbers: rows of the left operand, columns of the right, one contracted axis -/

theorem dot_S2000x128_S128x256_S2000x256_1_0_0_1_n_n_l0 (i : _) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dot_S2000x128_S128x256_S2000x256_1_0_0_1_n_n_l1 (i : _) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem dot_S2000x128_S128x256_S2000x256_1_0_0_1_n_n_r0 (i : _) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem dot_S2000x128_S128x256_S2000x256_1_0_0_1_n_n_r1 (i : _) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem dot_S2000x256_S256x256_S2000x256_1_0_0_1_n_n_l0 (i : _) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dot_S2000x256_S256x256_S2000x256_1_0_0_1_n_n_l1 (i : _) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem dot_S2000x256_S256x256_S2000x256_1_0_0_1_n_n_r0 (i : _) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem dot_S2000x256_S256x256_S2000x256_1_0_0_1_n_n_r1 (i : _) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem dot_S2000x256_S256x40_S2000x40_1_0_0_1_n_n_l0 (i : _) (q : dot_S2000x256_S256x40_S2000x40_1_0_0_1_n_n.contr.Idx) : (dot_S2000x256_S256x40_S2000x40_1_0_0_1_n_n.lhsIdx i q 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
theorem dot_S2000x256_S256x40_S2000x40_1_0_0_1_n_n_l1 (i : _) (q : dot_S2000x256_S256x40_S2000x40_1_0_0_1_n_n.contr.Idx) : (dot_S2000x256_S256x40_S2000x40_1_0_0_1_n_n.lhsIdx i q 1).val = (q ⟨0, by decide⟩).val :=
  dot_S2000x256_S256x40_S2000x40_1_0_0_1_n_n.lhsIdx_val_of_single rfl i q
theorem dot_S2000x256_S256x40_S2000x40_1_0_0_1_n_n_r0 (i : _) (q : dot_S2000x256_S256x40_S2000x40_1_0_0_1_n_n.contr.Idx) : (dot_S2000x256_S256x40_S2000x40_1_0_0_1_n_n.rhsIdx i q 0).val = (q ⟨0, by decide⟩).val :=
  dot_S2000x256_S256x40_S2000x40_1_0_0_1_n_n.rhsIdx_val_of_single rfl i q
theorem dot_S2000x256_S256x40_S2000x40_1_0_0_1_n_n_r1 (i : _) (q : dot_S2000x256_S256x40_S2000x40_1_0_0_1_n_n.contr.Idx) : (dot_S2000x256_S256x40_S2000x40_1_0_0_1_n_n.rhsIdx i q 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-! ## The stored values at an entry -/

/-- The first convolution's body at `(p, e)` of its block: the layer's formula of the loaded blocks. -/
theorem k0_pay1_apply (v0 v3 : FVec Ideal S2000x128 .f32) (v5 v7 : FVec Ideal S256x128 .f32) (v14 : FVec Ideal S256 .f32)
    (p : Fin 2000) (e : Fin 256) :
    k0_pay1 (F := Ideal) v0 v3 v5 v7 v14 (ix2 p e) = combineAt v0 v3 v5 v14 v7 p e := by
  unfold k0_pay1 combineAt
  simp only [ValueIdx.maximumf_apply, ValueIdx.addf_apply, ValueIdx.broadcast_apply]
  refine congrArg₂ max (congrArg₂ (· + ·) (congrArg₂ (· + ·) ?_ ?_) ?_) rfl
  · refine (matmul_transposed_apply dot_S2000x128_S128x256_S2000x256_1_0_0_1_n_n rfl rfl dot_S2000x128_S128x256_S2000x256_1_0_0_1_n_n_l0 dot_S2000x128_S128x256_S2000x256_1_0_0_1_n_n_l1 dot_S2000x128_S128x256_S2000x256_1_0_0_1_n_n_r0 dot_S2000x128_S128x256_S2000x256_1_0_0_1_n_n_r1 none _ _ _ p e).trans ?_
    rw [shapeCast_self]; rfl
  · exact matmul_transposed_apply dot_S2000x128_S128x256_S2000x256_1_0_0_1_n_n rfl rfl dot_S2000x128_S128x256_S2000x256_1_0_0_1_n_n_l0 dot_S2000x128_S128x256_S2000x256_1_0_0_1_n_n_l1 dot_S2000x128_S128x256_S2000x256_1_0_0_1_n_n_r0 dot_S2000x128_S128x256_S2000x256_1_0_0_1_n_n_r1 none _ _ _ p e
  · exact Cert.LibCols.bias_rows_apply v14 _ _ p e

/-- The second convolution's body at `(p, e)` of its block. -/
theorem k1_pay1_apply (v0 v3 : FVec Ideal S2000x256 .f32) (v6 v8 : FVec Ideal S256x256 .f32) (v15 : FVec Ideal S256 .f32)
    (p : Fin 2000) (e : Fin 256) :
    k1_pay1 (F := Ideal) v0 v3 v6 v8 v15 (ix2 p e) = combineAt v0 v3 v6 v15 v8 p e := by
  unfold k1_pay1 combineAt
  simp only [ValueIdx.maximumf_apply, ValueIdx.addf_apply, ValueIdx.broadcast_apply]
  refine congrArg₂ max (congrArg₂ (· + ·) (congrArg₂ (· + ·) ?_ ?_) ?_) rfl
  · refine (matmul_transposed_apply dot_S2000x256_S256x256_S2000x256_1_0_0_1_n_n rfl rfl dot_S2000x256_S256x256_S2000x256_1_0_0_1_n_n_l0 dot_S2000x256_S256x256_S2000x256_1_0_0_1_n_n_l1 dot_S2000x256_S256x256_S2000x256_1_0_0_1_n_n_r0 dot_S2000x256_S256x256_S2000x256_1_0_0_1_n_n_r1 none _ _ _ p e).trans ?_
    rw [shapeCast_self]; rfl
  · refine (matmul_transposed_apply dot_S2000x256_S256x256_S2000x256_1_0_0_1_n_n rfl rfl dot_S2000x256_S256x256_S2000x256_1_0_0_1_n_n_l0 dot_S2000x256_S256x256_S2000x256_1_0_0_1_n_n_l1 dot_S2000x256_S256x256_S2000x256_1_0_0_1_n_n_r0 dot_S2000x256_S256x256_S2000x256_1_0_0_1_n_n_r1 none _ _ _ p e).trans ?_
    rw [shapeCast_self]; rfl
  · exact Cert.LibCols.bias_rows_apply v15 _ _ p e

/-- The head's body at `(p, e)` of its block. -/
theorem k2_pay1_apply (v0 : FVec Ideal S2000x256 .f32) (v3 : FVec Ideal S40x256 .f32) (v7 : FVec Ideal S40 .f32)
    (p : Fin 2000) (e : Fin 40) :
    k2_pay1 (F := Ideal) v0 v3 v7 (ix2 p e) = linearAt v0 v3 v7 p e := by
  unfold k2_pay1 linearAt
  simp only [ValueIdx.addf_apply]
  refine congrArg₂ (· + ·) ?_ ?_
  · refine (matmul_transposed_apply dot_S2000x256_S256x40_S2000x40_1_0_0_1_n_n rfl rfl dot_S2000x256_S256x40_S2000x40_1_0_0_1_n_n_l0 dot_S2000x256_S256x40_S2000x40_1_0_0_1_n_n_l1 dot_S2000x256_S256x40_S2000x40_1_0_0_1_n_n_r0 dot_S2000x256_S256x40_S2000x40_1_0_0_1_n_n_r1 none _ _ _ p e).trans ?_
    rw [shapeCast_self]; rfl
  · exact Cert.LibCols.bias_rows_apply v7 _ _ p e

/-! ## An entry of a block against an entry of the whole array

  Row `p` of a block of 2000 rows is row `r` of the whole array; the weight arrays and the bias are loaded whole.
  So when the loaded blocks agree with the arrays at the entries the formula reads, the stored value at `(p, e)` is the
  layer's array at `(r, e)`. -/

theorem entry0 (x0 x1 : FVec Ideal S2000x128 .f32) (x2 x4 : FVec Ideal S256x128 .f32) (x3 : FVec Ideal S256 .f32)
    (A X : FVec Ideal S50000x128 .f32) (WL WR : FVec Ideal S256x128 .f32) (B : FVec Ideal S256 .f32)
    (p : Fin 2000) (e : Fin 256) (r : Fin 50000)
    (h0 : ∀ k : Fin 128, x0 (ix2 p k) = A (ix2 r k)) (h1 : ∀ k : Fin 128, x1 (ix2 p k) = X (ix2 r k))
    (h2 : ∀ k : Fin 128, x2 (ix2 e k) = WL (ix2 e k)) (h4 : ∀ k : Fin 128, x4 (ix2 e k) = WR (ix2 e k))
    (h3 : x3 (ix1 e) = B (ix1 e)) :
    k0_pay1 (F := Ideal) x0 x1 x2 x4 x3 (ix2 p e) = combine A X WL B WR (ix2 r e) := by
  rw [k0_pay1_apply, combine_apply]
  unfold combineAt rowsDot
  simp only [h0, h1, h2, h4, h3]

theorem entry1 (x0 x1 : FVec Ideal S2000x256 .f32) (x2 x4 : FVec Ideal S256x256 .f32) (x3 : FVec Ideal S256 .f32)
    (A X : FVec Ideal S50000x256 .f32) (WL WR : FVec Ideal S256x256 .f32) (B : FVec Ideal S256 .f32)
    (p : Fin 2000) (e : Fin 256) (r : Fin 50000)
    (h0 : ∀ k : Fin 256, x0 (ix2 p k) = A (ix2 r k)) (h1 : ∀ k : Fin 256, x1 (ix2 p k) = X (ix2 r k))
    (h2 : ∀ k : Fin 256, x2 (ix2 e k) = WL (ix2 e k)) (h4 : ∀ k : Fin 256, x4 (ix2 e k) = WR (ix2 e k))
    (h3 : x3 (ix1 e) = B (ix1 e)) :
    k1_pay1 (F := Ideal) x0 x1 x2 x4 x3 (ix2 p e) = combine A X WL B WR (ix2 r e) := by
  rw [k1_pay1_apply, combine_apply]
  unfold combineAt rowsDot
  simp only [h0, h1, h2, h4, h3]

theorem entry2 (x0 : FVec Ideal S2000x256 .f32) (x1 : FVec Ideal S40x256 .f32) (x2 : FVec Ideal S40 .f32)
    (Z : FVec Ideal S50000x256 .f32) (W : FVec Ideal S40x256 .f32) (B : FVec Ideal S40 .f32)
    (p : Fin 2000) (e : Fin 40) (r : Fin 50000)
    (h0 : ∀ k : Fin 256, x0 (ix2 p k) = Z (ix2 r k)) (h1 : ∀ k : Fin 256, x1 (ix2 e k) = W (ix2 e k))
    (h2 : x2 (ix1 e) = B (ix1 e)) :
    k2_pay1 (F := Ideal) x0 x1 x2 (ix2 p e) = linear Z W B (ix2 r e) := by
  rw [k2_pay1_apply, linear_apply]
  unfold linearAt rowsDot
  simp only [h0, h1, h2]

end Cert.Sage.KPay

end
-- ==== Proof.KBlocks0.lean ====
/-
  The first convolution's grid: 25 points, point `t` computing rows `[2000 t, 2000 t + 2000)` of the layer's output from the
  same rows of the aggregated array and of the node array, and from the whole weight arrays and bias.

  Block `t` of every row-blocked window sits at rows `2000 t + p`; a block's coordinate is always block index × block
  size + the coordinate inside the block.  So what point `t` writes back is block `t` of ONE whole-array function, the
  layer `Cert.Sage.combine` of the arrays as the grid finds them; the 25 blocks tile the 50000 rows; hence the output
  array after the grid IS that function.  Stated for any contents `V` of the buffers at the grid's entry.
-/
import proofs.«140325_j19155554140461_1_alg».proof.Proof.Gen.KernelIdeal.Frame
import proofs.«140325_j19155554140461_1_alg».proof.Proof.KPay

set_option maxRecDepth 16384

noncomputable section

namespace Cert.Sage.KBlocks0

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 grid points: the two row-blocked inputs move with the output block,
    whose block index is the point itself; the weights and the bias stay at block 0. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0 :=
  (by decide +kernel : ∀ t : Fin grid0.N, _)

/-- Every one of the 25 row blocks is some point's. -/
theorem idx_onto : ∀ q : Fin 25, ∃ t : Fin cfg0.N, t.val = q.val :=
  (by decide +kernel : ∀ q : Fin 25, ∃ t : Fin grid0.N, t.val = q.val)

/-- WHAT POINT `t` WRITES BACK is block `t` of the layer's array of the arrays as the grid finds them. -/
theorem flushed_eq (c : Dev nD) (t : Fin cfg0.N) :
    (dat0 V c).flushed 5 t = ((cfg0.win 5).blk t).view.read (Elt Ideal)
      (combine (V c main_v21) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S256x128) hz2, View.ld_unit_zero (S := S256) hz1]
  obtain ⟨e50, e51, e00, e01, e10, e11, e20, e21, e30, e40, e41⟩ := idx_facts t
  have hN : grid0.N = 25 := N_0
  have ht : t.val < 25 := hN ▸ t.isLt
  funext j
  have hj0 : (j 0).val < 2000 := (j 0).isLt
  have hj1 : (j 1).val < 256 := (j 1).isLt
  have hr : t.val * 2000 + (j 0).val < 50000 := by omega
  have ej : j = ix2 (⟨(j 0).val, hj0⟩ : Fin 2000) (⟨(j 1).val, hj1⟩ : Fin 256) := funext fun a => Fin.ext (by
    match a with
    | ⟨0, _⟩ => rfl
    | ⟨1, _⟩ => rfl)
  have ei : ((cfg0.win 5).blk t).view.emb j = ix2 (⟨t.val * 2000 + (j 0).val, hr⟩ : Fin 50000) (⟨(j 1).val, hj1⟩ : Fin 256) :=
    funext fun a => Fin.ext (by
      match a with
      | ⟨0, _⟩ => show win0_5.index t (0 : Fin 2) * 2000 + 1 * (j 0).val = t.val * 2000 + (j 0).val; omega
      | ⟨1, _⟩ => show win0_5.index t (1 : Fin 2) * 256 + 1 * (j 1).val = (j 1).val; omega)
  show k0_pay1 (F := Ideal) (iblk0 V c 0 t) (iblk0 V c 1 t) (iblk0 V c 2 t) (iblk0 V c 4 t) (iblk0 V c 3 t) j
    = combine (V c main_v21) (V c main_arg0) (V c main_arg2) (V c main_arg3) (V c main_arg4) (((cfg0.win 5).blk t).view.emb j)
  rw [ei]
  refine (congrArg (k0_pay1 (F := Ideal) (iblk0 V c 0 t) (iblk0 V c 1 t) (iblk0 V c 2 t) (iblk0 V c 4 t) (iblk0 V c 3 t)) ej).trans ?_
  refine KPay.entry0 (iblk0 V c 0 t) (iblk0 V c 1 t) (iblk0 V c 2 t) (iblk0 V c 4 t) (iblk0 V c 3 t)
    (V c main_v21) (V c main_arg0) (V c main_arg2) (V c main_arg4) (V c main_arg3) _ _ _ ?_ ?_ ?_ ?_ ?_
  · intro k
    show V c main_v21 (((cfg0.win 0).blk t).view.emb (ix2 _ k)) = _
    refine congrArg _ (funext fun a => Fin.ext ?_)
    match a with
    | ⟨0, _⟩ => show win0_0.index t (0 : Fin 2) * 2000 + 1 * (j 0).val = t.val * 2000 + (j 0).val; omega
    | ⟨1, _⟩ => show win0_0.index t (1 : Fin 2) * 128 + 1 * k.val = k.val; omega
  · intro k
    show V c main_arg0 (((cfg0.win 1).blk t).view.emb (ix2 _ k)) = _
    refine congrArg _ (funext fun a => Fin.ext ?_)
    match a with
    | ⟨0, _⟩ => show win0_1.index t (0 : Fin 2) * 2000 + 1 * (j 0).val = t.val * 2000 + (j 0).val; omega
    | ⟨1, _⟩ => show win0_1.index t (1 : Fin 2) * 128 + 1 * k.val = k.val; omega
  · intro k
    show V c main_arg2 (((cfg0.win 2).blk t).view.emb (ix2 _ k)) = _
    refine congrArg _ (funext fun a => Fin.ext ?_)
    match a with
    | ⟨0, _⟩ => show win0_2.index t (0 : Fin 2) * 256 + 1 * (j 1).val = (j 1).val; omega
    | ⟨1, _⟩ => show win0_2.index t (1 : Fin 2) * 128 + 1 * k.val = k.val; omega
  · intro k
    show V c main_arg4 (((cfg0.win 4).blk t).view.emb (ix2 _ k)) = _
    refine congrArg _ (funext fun a => Fin.ext ?_)
    match a with
    | ⟨0, _⟩ => show win0_4.index t (0 : Fin 2) * 256 + 1 * (j 1).val = (j 1).val; omega
    | ⟨1, _⟩ => show win0_4.index t (1 : Fin 2) * 128 + 1 * k.val = k.val; omega
  · show V c main_arg3 (((cfg0.win 3).blk t).view.emb (ix1 _)) = _
    refine congrArg _ (funext fun a => Fin.ext ?_)
    match a with
    | ⟨0, _⟩ => show win0_3.index t (0 : Fin 1) * 256 + 1 * (j 1).val = (j 1).val; omega

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v22).slice (win0_5.rect t)).set ↔ _
  rw [View.set_slice_whole, Rect.mem_set_unit]
  exact Iff.rfl

/-- The 25 blocks of 2000 rows tile the 50000 rows: row `r` is in block `r / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have ht' : t.val = (i 0).val / 2000 := ht
  obtain ⟨e50, e51, -⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE ARRAY after the grid: the layer's array of the arrays as the grid finds them. -/
theorem final (c : Dev nD) : (dat0 V c).arrAt 5 cfg0.N
    = combine (V c main_v21) (V c main_arg0) (V c main_arg2) (V c main_arg3) (V c main_arg4) :=
  (dat0 V c).arrAt_eq_of_cover 5 _ (fun t _ => flushed_eq V c t) cover

end Cert.Sage.KBlocks0

end
-- ==== Proof.KBlocks1.lean ====
/-
  The second convolution's grid: 25 points, point `t` computing rows `[2000 t, 2000 t + 2000)` of the layer's output from the
  same rows of the aggregated array and of the first layer's output, and from the whole weight arrays and bias.

  As for the first grid: what point `t` writes back is block `t` of ONE whole-array function, the layer
  `Cert.Sage.combine` of the arrays as the grid finds them; the 25 blocks tile the 50000 rows; hence the output array
  after the grid IS that function.  Stated for any contents `V` of the buffers at the grid's entry.
-/
import proofs.«140325_j19155554140461_1_alg».proof.Proof.Gen.KernelIdeal.Frame
import proofs.«140325_j19155554140461_1_alg».proof.Proof.KPay

set_option maxRecDepth 16384

noncomputable section

namespace Cert.Sage.KBlocks1

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 grid points: the two row-blocked inputs move with the output block,
    whose block index is the point itself; the weights and the bias stay at block 0. -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 :=
  (by decide +kernel : ∀ t : Fin grid1.N, _)

/-- Every one of the 25 row blocks is some point's. -/
theorem idx_onto : ∀ q : Fin 25, ∃ t : Fin cfg1.N, t.val = q.val :=
  (by decide +kernel : ∀ q : Fin 25, ∃ t : Fin grid1.N, t.val = q.val)

/-- WHAT POINT `t` WRITES BACK is block `t` of the layer's array of the arrays as the grid finds them. -/
theorem flushed_eq (c : Dev nD) (t : Fin cfg1.N) :
    (dat1 V c).flushed 5 t = ((cfg1.win 5).blk t).view.read (Elt Ideal)
      (combine (V c main_v44) (V c main_v22) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  obtain ⟨e50, e51, e00, e01, e10, e11, e20, e21, e30, e40, e41⟩ := idx_facts t
  have hN : grid1.N = 25 := N_1
  have ht : t.val < 25 := hN ▸ t.isLt
  funext j
  have hj0 : (j 0).val < 2000 := (j 0).isLt
  have hj1 : (j 1).val < 256 := (j 1).isLt
  have hr : t.val * 2000 + (j 0).val < 50000 := by omega
  have ej : j = ix2 (⟨(j 0).val, hj0⟩ : Fin 2000) (⟨(j 1).val, hj1⟩ : Fin 256) := funext fun a => Fin.ext (by
    match a with
    | ⟨0, _⟩ => rfl
    | ⟨1, _⟩ => rfl)
  have ei : ((cfg1.win 5).blk t).view.emb j = ix2 (⟨t.val * 2000 + (j 0).val, hr⟩ : Fin 50000) (⟨(j 1).val, hj1⟩ : Fin 256) :=
    funext fun a => Fin.ext (by
      match a with
      | ⟨0, _⟩ => show win1_5.index t (0 : Fin 2) * 2000 + 1 * (j 0).val = t.val * 2000 + (j 0).val; omega
      | ⟨1, _⟩ => show win1_5.index t (1 : Fin 2) * 256 + 1 * (j 1).val = (j 1).val; omega)
  show k1_pay1 (F := Ideal) (iblk1 V c 0 t) (iblk1 V c 1 t) (iblk1 V c 2 t) (iblk1 V c 4 t) (iblk1 V c 3 t) j
    = combine (V c main_v44) (V c main_v22) (V c main_arg5) (V c main_arg6) (V c main_arg7) (((cfg1.win 5).blk t).view.emb j)
  rw [ei]
  refine (congrArg (k1_pay1 (F := Ideal) (iblk1 V c 0 t) (iblk1 V c 1 t) (iblk1 V c 2 t) (iblk1 V c 4 t) (iblk1 V c 3 t)) ej).trans ?_
  refine KPay.entry1 (iblk1 V c 0 t) (iblk1 V c 1 t) (iblk1 V c 2 t) (iblk1 V c 4 t) (iblk1 V c 3 t)
    (V c main_v44) (V c main_v22) (V c main_arg5) (V c main_arg7) (V c main_arg6) _ _ _ ?_ ?_ ?_ ?_ ?_
  · intro k
    show V c main_v44 (((cfg1.win 0).blk t).view.emb (ix2 _ k)) = _
    refine congrArg _ (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 256 + 1 * k.val = k.val; omega
  · intro k
    show V c main_v22 (((cfg1.win 1).blk t).view.emb (ix2 _ k)) = _
    refine congrArg _ (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 256 + 1 * k.val = k.val; omega
  · intro k
    show V c main_arg5 (((cfg1.win 2).blk t).view.emb (ix2 _ k)) = _
    refine congrArg _ (funext fun a => Fin.ext ?_)
    match a with
    | ⟨0, _⟩ => show win1_2.index t (0 : Fin 2) * 256 + 1 * (j 1).val = (j 1).val; omega
    | ⟨1, _⟩ => show win1_2.index t (1 : Fin 2) * 256 + 1 * k.val = k.val; omega
  · intro k
    show V c main_arg7 (((cfg1.win 4).blk t).view.emb (ix2 _ k)) = _
    refine congrArg _ (funext fun a => Fin.ext ?_)
    match a with
    | ⟨0, _⟩ => show win1_4.index t (0 : Fin 2) * 256 + 1 * (j 1).val = (j 1).val; omega
    | ⟨1, _⟩ => show win1_4.index t (1 : Fin 2) * 256 + 1 * k.val = k.val; omega
  · show V c main_arg6 (((cfg1.win 3).blk t).view.emb (ix1 _)) = _
    refine congrArg _ (funext fun a => Fin.ext ?_)
    match a with
    | ⟨0, _⟩ => show win1_3.index t (0 : Fin 1) * 256 + 1 * (j 1).val = (j 1).val; omega

/-- An index of the output array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v45).slice (win1_5.rect t)).set ↔ _
  rw [View.set_slice_whole, Rect.mem_set_unit]
  exact Iff.rfl

/-- The 25 blocks of 2000 rows tile the 50000 rows: row `r` is in block `r / 2000`. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto ⟨(i 0).val / 2000, by omega⟩
  have ht' : t.val = (i 0).val / 2000 := ht
  obtain ⟨e50, e51, -⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE ARRAY after the grid: the layer's array of the arrays as the grid finds them. -/
theorem final (c : Dev nD) : (dat1 V c).arrAt 5 cfg1.N
    = combine (V c main_v44) (V c main_v22) (V c main_arg5) (V c main_arg6) (V c main_arg7) :=
  (dat1 V c).arrAt_eq_of_cover 5 _ (fun t _ => flushed_eq V c t) cover

end Cert.Sage.KBlocks1

end
-- ==== Proof.KBlocks2.lean ====
/-
  The head's grid: 25 points, point `t` computing rows `[2000 t, 2000 t + 2000)` of the result from the same rows of the
  second layer's output and from the whole weight array and bias of the head.

  What point `t` writes back is block `t` of ONE whole-array function, `Cert.Sage.linear` of the arrays as the grid finds
  them; the 25 blocks tile the 50000 rows; hence the result array after the grid IS that function.  Stated for any
  contents `V` of the buffers at the grid's entry.
-/
import proofs.«140325_j19155554140461_1_alg».proof.Proof.Gen.KernelIdeal.Frame
import proofs.«140325_j19155554140461_1_alg».proof.Proof.KPay

set_option maxRecDepth 16384

noncomputable section

namespace Cert.Sage.KBlocks2

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 grid points: the row-blocked input moves with the output block, whose
    block index is the point itself; the weights and the bias stay at block 0. -/
theorem idx_facts : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 1) = 0 :=
  (by decide +kernel : ∀ t : Fin grid2.N, _)

/-- Every one of the 25 row blocks is some point's. -/
theorem idx_onto : ∀ q : Fin 25, ∃ t : Fin cfg2.N, t.val = q.val :=
  (by decide +kernel : ∀ q : Fin 25, ∃ t : Fin grid2.N, t.val = q.val)

/-- WHAT POINT `t` WRITES BACK is block `t` of the head's array of the arrays as the grid finds them. -/
theorem flushed_eq (c : Dev nD) (t : Fin cfg2.N) :
    (dat2 V c).flushed 3 t = ((cfg2.win 3).blk t).view.read (Elt Ideal)
      (linear (V c main_v45) (V c main_arg8) (V c main_arg9)) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S40x256) hz2, View.ld_unit_zero (S := S40) hz1]
  obtain ⟨e30, e31, e00, e01, e10, e11, e20⟩ := idx_facts t
  have hN : grid2.N = 25 := N_2
  have ht : t.val < 25 := hN ▸ t.isLt
  funext j
  have hj0 : (j 0).val < 2000 := (j 0).isLt
  have hj1 : (j 1).val < 40 := (j 1).isLt
  have hr : t.val * 2000 + (j 0).val < 50000 := by omega
  have ej : j = ix2 (⟨(j 0).val, hj0⟩ : Fin 2000) (⟨(j 1).val, hj1⟩ : Fin 40) := funext fun a => Fin.ext (by
    match a with
    | ⟨0, _⟩ => rfl
    | ⟨1, _⟩ => rfl)
  have ei : ((cfg2.win 3).blk t).view.emb j = ix2 (⟨t.val * 2000 + (j 0).val, hr⟩ : Fin 50000) (⟨(j 1).val, hj1⟩ : Fin 40) :=
    funext fun a => Fin.ext (by
      match a with
      | ⟨0, _⟩ => show win2_3.index t (0 : Fin 2) * 2000 + 1 * (j 0).val = t.val * 2000 + (j 0).val; omega
      | ⟨1, _⟩ => show win2_3.index t (1 : Fin 2) * 40 + 1 * (j 1).val = (j 1).val; omega)
  show k2_pay1 (F := Ideal) (iblk2 V c 0 t) (iblk2 V c 1 t) (iblk2 V c 2 t) j
    = linear (V c main_v45) (V c main_arg8) (V c main_arg9) (((cfg2.win 3).blk t).view.emb j)
  rw [ei]
  refine (congrArg (k2_pay1 (F := Ideal) (iblk2 V c 0 t) (iblk2 V c 1 t) (iblk2 V c 2 t)) ej).trans ?_
  refine KPay.entry2 (iblk2 V c 0 t) (iblk2 V c 1 t) (iblk2 V c 2 t)
    (V c main_v45) (V c main_arg8) (V c main_arg9) _ _ _ ?_ ?_ ?_
  · intro k
    show V c main_v45 (((cfg2.win 0).blk t).view.emb (ix2 _ k)) = _
    refine congrArg _ (funext fun a => Fin.ext ?_)
    match a with
    | ⟨0, _⟩ => show win2_0.index t (0 : Fin 2) * 2000 + 1 * (j 0).val = t.val * 2000 + (j 0).val; omega
    | ⟨1, _⟩ => show win2_0.index t (1 : Fin 2) * 256 + 1 * k.val = k.val; omega
  · intro k
    show V c main_arg8 (((cfg2.win 1).blk t).view.emb (ix2 _ k)) = _
    refine congrArg _ (funext fun a => Fin.ext ?_)
    match a with
    | ⟨0, _⟩ => show win2_1.index t (0 : Fin 2) * 40 + 1 * (j 1).val = (j 1).val; omega
    | ⟨1, _⟩ => show win2_1.index t (1 : Fin 2) * 256 + 1 * k.val = k.val; omega
  · show V c main_arg9 (((cfg2.win 2).blk t).view.emb (ix1 _)) = _
    refine congrArg _ (funext fun a => Fin.ext ?_)
    match a with
    | ⟨0, _⟩ => show win2_2.index t (0 : Fin 1) * 40 + 1 * (j 1).val = (j 1).val; omega

/-- An index of the result array is in point `t`'s block iff each coordinate is in the block's range on its axis. -/
theorem mem_blk (t : Fin cfg2.N) (i : S50000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v46).slice (win2_3.rect t)).set ↔ _
  rw [View.set_slice_whole, Rect.mem_set_unit]
  exact Iff.rfl

/-- The 25 blocks of 2000 rows tile the 50000 rows: row `r` is in block `r / 2000`. -/
theorem cover (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ := idx_onto ⟨(i 0).val / 2000, by omega⟩
  have ht' : t.val = (i 0).val / 2000 := ht
  obtain ⟨e30, e31, -⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 40 ≤ (i 1).val ∧ (i 1).val < win2_3.index t (1 : Fin 2) * 40 + 40; omega

/-- THE RESULT ARRAY after the grid: the head's array of the arrays as the grid finds them. -/
theorem final (c : Dev nD) : (dat2 V c).arrAt 3 cfg2.N = linear (V c main_v45) (V c main_arg8) (V c main_arg9) :=
  (dat2 V c).arrAt_eq_of_cover 3 _ (fun t _ => flushed_eq V c t) cover

end Cert.Sage.KBlocks2

end
-- ==== Proof.KHost.lean ====
/-
  What the kernel program's host operations leave in the buffers its three kernel calls read.

  Between the launch and the first call the program runs the mean aggregation of the node array over the edge list,
  as three stretches of host operations: a long one (the edge rows, the gathered source rows summed into their
  destination rows, the in-degree as a sum of ones, and the scalar one), a short one (the in-degree raised to at least
  one) and another short one (each summed row divided by its node's count).  Between the first and the second call it
  runs the same three stretches on the first call's result.  Each stretch is read on its own, over an arbitrary
  assignment of contents to the buffers, at the buffers it writes that are read later; a buffer a stretch does not
  write keeps its contents.  Chaining the stretches from the launch gives the aggregate at the first call's entry and
  every argument unchanged; chaining them from the first call's exit gives the aggregate of its result at the second
  call's entry.
-/
import proofs.«140325_j19155554140461_1_alg».proof.Proof.Gen.KernelIdeal.Frame
import proofs.«140325_j19155554140461_1_alg».proof.Proof.Aggr
import Idealize.ShloMosaic.Lib.StableHlo.Run

noncomputable section

open Idealize.ShloMosaic Idealize.ShloMosaic.TcCoe Idealize.SL.Sem Idealize.ShloMosaic.StableHlo

namespace Cert.Sage.KHost

open Cert.Sage
open Cert.KernelIdeal Cert.KernelIdeal.Facts₀ Cert.KernelIdeal.Facts

/-! ## The pieces of the aggregation, each a function of the buffers one stretch reads -/

/-- The source rows of a 128-column node array summed into their destination rows. -/
def scatterSum128 (x : (⟨S50000x128, .f32⟩ : BufTy).Contents (Elt Ideal)) (ei : (⟨S2x800000, .i32⟩ : BufTy).Contents (Elt Ideal)) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (dstIndices ei)
    (Host.gather gather_S50000x128_S800000x1_S800000x128_1_0_n_n_0_1_1128 x (srcIndices ei))

/-- The same for a 256-column node array. -/
def scatterSum256 (h : (⟨S50000x256, .f32⟩ : BufTy).Contents (Elt Ideal)) (ei : (⟨S2x800000, .i32⟩ : BufTy).Contents (Elt Ideal)) :
    FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (dstIndices ei)
    (Host.gather gather_S50000x256_S800000x1_S800000x256_1_0_n_n_0_1_1256 h (srcIndices ei))

/-- The number of edges arriving at each node: a one summed into the destination of every edge. -/
def inCount (ei : (⟨S2x800000, .i32⟩ : BufTy).Contents (Elt Ideal)) : FVec Ideal S50000 .f32 :=
  Host.scatterAdd (F := Ideal) scatter_S50000_S800000x1_S800000_n_0_0_1
    (broadcastInDim S50000 ![] bcast_S_S50000 (constant (F := Ideal) S_ .f32 0x00000000#32))
    (dstIndices ei)
    (broadcastInDim S800000 ![] bcast_S_S800000 (constant (F := Ideal) S_ .f32 0x3F800000#32))

/-- The scalar one. -/
def oneS : FVec Ideal S_ .f32 := constant (F := Ideal) S_ .f32 0x3F800000#32

/-- The count raised to at least the given scalar. -/
def clipAt (one : FVec Ideal S_ .f32) (cnt : FVec Ideal S50000 .f32) : FVec Ideal S50000 .f32 :=
  maximumf (F := Ideal) (broadcastInDim S50000 ![] bcast_S_S50000 (id one)) cnt

/-- Each row of a 128-column array divided by its node's count. -/
def divRows128 (s : FVec Ideal S50000x128 .f32) (cnt : FVec Ideal S50000 .f32) : FVec Ideal S50000x128 .f32 :=
  Host.divf (F := Ideal) s
    (broadcastInDim S50000x128 ![0, 1] bcast_S50000x1_S50000x128_0_1 (broadcastInDim S50000x1 ![0] bcast_S50000_S50000x1_0 cnt))

/-- Each row of a 256-column array divided by its node's count. -/
def divRows256 (s : FVec Ideal S50000x256 .f32) (cnt : FVec Ideal S50000 .f32) : FVec Ideal S50000x256 .f32 :=
  Host.divf (F := Ideal) s
    (broadcastInDim S50000x256 ![0, 1] bcast_S50000x1_S50000x256_0_1 (broadcastInDim S50000x1 ![0] bcast_S50000_S50000x1_0 cnt))

/-- The mean aggregation is these pieces put together: the summed rows divided by the clipped in-degree. -/
theorem meanAgg128_eq (x : (⟨S50000x128, .f32⟩ : BufTy).Contents (Elt Ideal)) (ei : (⟨S2x800000, .i32⟩ : BufTy).Contents (Elt Ideal)) :
    meanAgg128 x ei = divRows128 (scatterSum128 x ei) (clipAt oneS (inCount ei)) := rfl

theorem meanAgg256_eq (h : (⟨S50000x256, .f32⟩ : BufTy).Contents (Elt Ideal)) (ei : (⟨S2x800000, .i32⟩ : BufTy).Contents (Elt Ideal)) :
    meanAgg256 h ei = divRows256 (scatterSum256 h ei) (clipAt oneS (inCount ei)) := rfl

/-! ## What no stretch writes: each stretch's written references as a list, so that "not written" is decided -/

/-- The references the operations of stretch 0 write. -/
abbrev wr0 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3]

set_option maxHeartbeats 1000000 in
theorem wr0_sub : (Gen.hostOps0 (F := Ideal)).Forall fun op => op.writes ⊆ (wr0.map (Proc.devRef (τ := τ) .tc)).toFinset := by
  simp only [Gen.hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 0 does not write keeps its contents. -/
theorem keep0 (X : Valuation τ sig (Elt Ideal)) {r : Ref sig .tc} (hr : r ∉ wr0) :
    StableHlo.after (Gen.hostOps0 (F := Ideal)) X (Proc.devRef .tc r) = X (Proc.devRef .tc r) :=
  StableHlo.after_of_writes_sub _ X wr0_sub hr

/-- The references the operations of stretch 0_1 write. -/
abbrev wr0_1 : List (Ref sig .tc) :=
  [main_call0_v0, main_call0_v1, main_v18]

set_option maxHeartbeats 1000000 in
theorem wr0_1_sub : (Gen.hostOps0_1 (F := Ideal)).Forall fun op => op.writes ⊆ (wr0_1.map (Proc.devRef (τ := τ) .tc)).toFinset := by
  simp only [Gen.hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 0_1 does not write keeps its contents. -/
theorem keep0_1 (X : Valuation τ sig (Elt Ideal)) {r : Ref sig .tc} (hr : r ∉ wr0_1) :
    StableHlo.after (Gen.hostOps0_1 (F := Ideal)) X (Proc.devRef .tc r) = X (Proc.devRef .tc r) :=
  StableHlo.after_of_writes_sub _ X wr0_1_sub hr

/-- The references the operations of stretch 0_2 write. -/
abbrev wr0_2 : List (Ref sig .tc) :=
  [main_v19, main_v20, main_v21]

set_option maxHeartbeats 1000000 in
theorem wr0_2_sub : (Gen.hostOps0_2 (F := Ideal)).Forall fun op => op.writes ⊆ (wr0_2.map (Proc.devRef (τ := τ) .tc)).toFinset := by
  simp only [Gen.hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 0_2 does not write keeps its contents. -/
theorem keep0_2 (X : Valuation τ sig (Elt Ideal)) {r : Ref sig .tc} (hr : r ∉ wr0_2) :
    StableHlo.after (Gen.hostOps0_2 (F := Ideal)) X (Proc.devRef .tc r) = X (Proc.devRef .tc r) :=
  StableHlo.after_of_writes_sub _ X wr0_2_sub hr

/-- The references the operations of stretch 1 write. -/
abbrev wr1 : List (Ref sig .tc) :=
  [main_v23, main_v24, main_v25, main_v26, main_c_4, main_v27, main_v28, main_c_5, main_v29, main_v30, main_v31, main_v32, main_v33, main_cst_6, main_v34, main_v35, main_v36, main_cst_7, main_v37, main_cst_8, main_v38, main_v39, main_v40, main_cst_9]

set_option maxHeartbeats 1000000 in
theorem wr1_sub : (Gen.hostOps1 (F := Ideal)).Forall fun op => op.writes ⊆ (wr1.map (Proc.devRef (τ := τ) .tc)).toFinset := by
  simp only [Gen.hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 1 does not write keeps its contents. -/
theorem keep1 (X : Valuation τ sig (Elt Ideal)) {r : Ref sig .tc} (hr : r ∉ wr1) :
    StableHlo.after (Gen.hostOps1 (F := Ideal)) X (Proc.devRef .tc r) = X (Proc.devRef .tc r) :=
  StableHlo.after_of_writes_sub _ X wr1_sub hr

/-- The references the operations of stretch 1_1 write. -/
abbrev wr1_1 : List (Ref sig .tc) :=
  [main_call1_v0, main_call1_v1, main_v41]

set_option maxHeartbeats 1000000 in
theorem wr1_1_sub : (Gen.hostOps1_1 (F := Ideal)).Forall fun op => op.writes ⊆ (wr1_1.map (Proc.devRef (τ := τ) .tc)).toFinset := by
  simp only [Gen.hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 1_1 does not write keeps its contents. -/
theorem keep1_1 (X : Valuation τ sig (Elt Ideal)) {r : Ref sig .tc} (hr : r ∉ wr1_1) :
    StableHlo.after (Gen.hostOps1_1 (F := Ideal)) X (Proc.devRef .tc r) = X (Proc.devRef .tc r) :=
  StableHlo.after_of_writes_sub _ X wr1_1_sub hr

/-- The references the operations of stretch 1_2 write. -/
abbrev wr1_2 : List (Ref sig .tc) :=
  [main_v42, main_v43, main_v44]

set_option maxHeartbeats 1000000 in
theorem wr1_2_sub : (Gen.hostOps1_2 (F := Ideal)).Forall fun op => op.writes ⊆ (wr1_2.map (Proc.devRef (τ := τ) .tc)).toFinset := by
  simp only [Gen.hostOps1_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer stretch 1_2 does not write keeps its contents. -/
theorem keep1_2 (X : Valuation τ sig (Elt Ideal)) {r : Ref sig .tc} (hr : r ∉ wr1_2) :
    StableHlo.after (Gen.hostOps1_2 (F := Ideal)) X (Proc.devRef .tc r) = X (Proc.devRef .tc r) :=
  StableHlo.after_of_writes_sub _ X wr1_2_sub hr

/-! ## The first group of stretches, each read over arbitrary contents `X` -/

set_option maxHeartbeats 1000000 in
theorem s0_v13 (X : Valuation τ sig (Elt Ideal)) :
    StableHlo.after (Gen.hostOps0 (F := Ideal)) X (Proc.devRef .tc main_v13)
      = scatterSum128 (X (Proc.devRef .tc main_arg0)) (X (Proc.devRef .tc main_arg1)) := by
  after_results
  first | done | rfl

set_option maxHeartbeats 1000000 in
theorem s0_v17 (X : Valuation τ sig (Elt Ideal)) :
    StableHlo.after (Gen.hostOps0 (F := Ideal)) X (Proc.devRef .tc main_v17) = inCount (X (Proc.devRef .tc main_arg1)) := by
  after_results
  first | done | rfl

set_option maxHeartbeats 1000000 in
theorem s0_cst3 (X : Valuation τ sig (Elt Ideal)) :
    StableHlo.after (Gen.hostOps0 (F := Ideal)) X (Proc.devRef .tc main_cst_3) = oneS := by
  after_results
  first | done | rfl

set_option maxHeartbeats 400000 in
theorem s01_v18 (X : Valuation τ sig (Elt Ideal)) :
    StableHlo.after (Gen.hostOps0_1 (F := Ideal)) X (Proc.devRef .tc main_v18)
      = clipAt (X (Proc.devRef .tc main_cst_3)) (X (Proc.devRef .tc main_v17)) := by
  after_results
  first | done | rfl

set_option maxHeartbeats 400000 in
theorem s02_v21 (X : Valuation τ sig (Elt Ideal)) :
    StableHlo.after (Gen.hostOps0_2 (F := Ideal)) X (Proc.devRef .tc main_v21)
      = divRows128 (X (Proc.devRef .tc main_v13)) (X (Proc.devRef .tc main_v18)) := by
  after_results
  first | done | rfl

/-! ## From the launch to the first call's entry -/

section Run

variable (m : (ℓ : Loc nD τ sig) → Buf (Elt Ideal) ℓ) (ρ : Dev nD → PrngReg) (c : Dev nD)

/-- A buffer none of the first three stretches writes holds, at the first call's entry, what it held at launch. -/
theorem W3_keep {r : Ref sig .tc} (h0 : r ∉ wr0) (h1 : r ∉ wr0_1) (h2 : r ∉ wr0_2) :
    Gen.W3 (F := Ideal) m ρ c (Proc.devRef .tc r) = m ((c : Thread nD τ).loc r) :=
  calc Gen.W3 (F := Ideal) m ρ c (Proc.devRef .tc r)
    _ = Gen.W2 (F := Ideal) m ρ c (Proc.devRef .tc r) := keep0_2 _ h2
    _ = Gen.W1 (F := Ideal) m ρ c (Proc.devRef .tc r) := keep0_1 _ h1
    _ = Gen.W0 (F := Ideal) m ρ c (Proc.devRef .tc r) := keep0 _ h0
    _ = m ((c : Thread nD τ).loc r) := rfl

/-- The arguments the first call reads are as launched. -/
theorem V3_arg0 : Gen.V3 (F := Ideal) m ρ c main_arg0 = m ((c : Thread nD τ).loc main_arg0) :=
  W3_keep m ρ c (by decide) (by decide) (by decide)
theorem V3_arg1 : Gen.V3 (F := Ideal) m ρ c main_arg1 = m ((c : Thread nD τ).loc main_arg1) :=
  W3_keep m ρ c (by decide) (by decide) (by decide)
theorem V3_arg2 : Gen.V3 (F := Ideal) m ρ c main_arg2 = m ((c : Thread nD τ).loc main_arg2) :=
  W3_keep m ρ c (by decide) (by decide) (by decide)
theorem V3_arg3 : Gen.V3 (F := Ideal) m ρ c main_arg3 = m ((c : Thread nD τ).loc main_arg3) :=
  W3_keep m ρ c (by decide) (by decide) (by decide)
theorem V3_arg4 : Gen.V3 (F := Ideal) m ρ c main_arg4 = m ((c : Thread nD τ).loc main_arg4) :=
  W3_keep m ρ c (by decide) (by decide) (by decide)

/-- At the first call's entry the aggregate buffer holds the mean aggregation of the launched node array
    over the launched edge list: the last stretch divides what the first summed by what the second clipped. -/
theorem V3_agg : Gen.V3 (F := Ideal) m ρ c main_v21
    = meanAgg128 (m ((c : Thread nD τ).loc main_arg0)) (m ((c : Thread nD τ).loc main_arg1)) :=
  calc Gen.V3 (F := Ideal) m ρ c main_v21
    _ = divRows128 (Gen.W2 (F := Ideal) m ρ c (Proc.devRef .tc main_v13)) (Gen.W2 (F := Ideal) m ρ c (Proc.devRef .tc main_v18)) :=
        s02_v21 _
    _ = divRows128 (Gen.W1 (F := Ideal) m ρ c (Proc.devRef .tc main_v13))
          (clipAt (Gen.W1 (F := Ideal) m ρ c (Proc.devRef .tc main_cst_3)) (Gen.W1 (F := Ideal) m ρ c (Proc.devRef .tc main_v17))) :=
        congrArg₂ divRows128 (keep0_1 _ (by decide)) (s01_v18 _)
    _ = divRows128 (scatterSum128 (Gen.W0 (F := Ideal) m ρ c (Proc.devRef .tc main_arg0)) (Gen.W0 (F := Ideal) m ρ c (Proc.devRef .tc main_arg1)))
          (clipAt oneS (inCount (Gen.W0 (F := Ideal) m ρ c (Proc.devRef .tc main_arg1)))) :=
        congrArg₂ divRows128 (s0_v13 _) (congrArg₂ clipAt (s0_cst3 _) (s0_v17 _))
    _ = meanAgg128 (m ((c : Thread nD τ).loc main_arg0)) (m ((c : Thread nD τ).loc main_arg1)) := rfl

/-! ## The second group of stretches: the same operations on the first call's result -/

set_option maxHeartbeats 1000000 in
theorem s1_v36 (X : Valuation τ sig (Elt Ideal)) :
    StableHlo.after (Gen.hostOps1 (F := Ideal)) X (Proc.devRef .tc main_v36)
      = scatterSum256 (X (Proc.devRef .tc main_v22)) (X (Proc.devRef .tc main_arg1)) := by
  after_results
  first | done | rfl

set_option maxHeartbeats 1000000 in
theorem s1_v40 (X : Valuation τ sig (Elt Ideal)) :
    StableHlo.after (Gen.hostOps1 (F := Ideal)) X (Proc.devRef .tc main_v40) = inCount (X (Proc.devRef .tc main_arg1)) := by
  after_results
  first | done | rfl

set_option maxHeartbeats 1000000 in
theorem s1_cst9 (X : Valuation τ sig (Elt Ideal)) :
    StableHlo.after (Gen.hostOps1 (F := Ideal)) X (Proc.devRef .tc main_cst_9) = oneS := by
  after_results
  first | done | rfl

set_option maxHeartbeats 400000 in
theorem s11_v41 (X : Valuation τ sig (Elt Ideal)) :
    StableHlo.after (Gen.hostOps1_1 (F := Ideal)) X (Proc.devRef .tc main_v41)
      = clipAt (X (Proc.devRef .tc main_cst_9)) (X (Proc.devRef .tc main_v40)) := by
  after_results
  first | done | rfl

set_option maxHeartbeats 400000 in
theorem s12_v44 (X : Valuation τ sig (Elt Ideal)) :
    StableHlo.after (Gen.hostOps1_2 (F := Ideal)) X (Proc.devRef .tc main_v44)
      = divRows256 (X (Proc.devRef .tc main_v36)) (X (Proc.devRef .tc main_v41)) := by
  after_results
  first | done | rfl

/-! ## From the first call's exit to the second call's entry, and on to the third's -/

/-- A buffer that is no array of the first call and that none of the first three stretches writes holds, at the
    first call's exit, what it held at launch. -/
theorem W4_keep {r : Ref sig .tc} (hw : ∀ w, Pipeline.arrRef spec0 w ≠ r) (h0 : r ∉ wr0) (h1 : r ∉ wr0_1) (h2 : r ∉ wr0_2) :
    Gen.W4 (F := Ideal) m ρ c (Proc.devRef .tc r) = m ((c : Thread nD τ).loc r) :=
  (Gen.W4_of_ne m ρ c r hw).trans (W3_keep m ρ c h0 h1 h2)

/-- A buffer none of the second three stretches writes holds, at the second call's entry, what it held at the first
    call's exit. -/
theorem W7_keep {r : Ref sig .tc} (h0 : r ∉ wr1) (h1 : r ∉ wr1_1) (h2 : r ∉ wr1_2) :
    Gen.W7 (F := Ideal) m ρ c (Proc.devRef .tc r) = Gen.W4 (F := Ideal) m ρ c (Proc.devRef .tc r) :=
  calc Gen.W7 (F := Ideal) m ρ c (Proc.devRef .tc r)
    _ = Gen.W6 (F := Ideal) m ρ c (Proc.devRef .tc r) := keep1_2 _ h2
    _ = Gen.W5 (F := Ideal) m ρ c (Proc.devRef .tc r) := keep1_1 _ h1
    _ = Gen.W4 (F := Ideal) m ρ c (Proc.devRef .tc r) := keep1 _ h0

/-- The first call's result is still in its buffer at the second call's entry. -/
theorem V7_h : Gen.V7 (F := Ideal) m ρ c main_v22 = Gen.V4 (F := Ideal) m ρ c main_v22 :=
  W7_keep m ρ c (by decide) (by decide) (by decide)

/-- The arguments the second call reads are as launched. -/
theorem V7_arg5 : Gen.V7 (F := Ideal) m ρ c main_arg5 = m ((c : Thread nD τ).loc main_arg5) :=
  (W7_keep m ρ c (by decide) (by decide) (by decide)).trans (W4_keep m ρ c (by decide) (by decide) (by decide) (by decide))
theorem V7_arg6 : Gen.V7 (F := Ideal) m ρ c main_arg6 = m ((c : Thread nD τ).loc main_arg6) :=
  (W7_keep m ρ c (by decide) (by decide) (by decide)).trans (W4_keep m ρ c (by decide) (by decide) (by decide) (by decide))
theorem V7_arg7 : Gen.V7 (F := Ideal) m ρ c main_arg7 = m ((c : Thread nD τ).loc main_arg7) :=
  (W7_keep m ρ c (by decide) (by decide) (by decide)).trans (W4_keep m ρ c (by decide) (by decide) (by decide) (by decide))

/-- A buffer that is no array of the second call either holds, at its exit, what it held at launch. -/
theorem W8_keep {r : Ref sig .tc} (hw1 : ∀ w, Pipeline.arrRef spec1 w ≠ r) (g0 : r ∉ wr1) (g1 : r ∉ wr1_1) (g2 : r ∉ wr1_2)
    (hw0 : ∀ w, Pipeline.arrRef spec0 w ≠ r) (h0 : r ∉ wr0) (h1 : r ∉ wr0_1) (h2 : r ∉ wr0_2) :
    Gen.W8 (F := Ideal) m ρ c (Proc.devRef .tc r) = m ((c : Thread nD τ).loc r) :=
  ((Gen.W8_of_ne m ρ c r hw1).trans (W7_keep m ρ c g0 g1 g2)).trans (W4_keep m ρ c hw0 h0 h1 h2)

/-- The arguments the third call reads are as launched. -/
theorem V8_arg8 : Gen.V8 (F := Ideal) m ρ c main_arg8 = m ((c : Thread nD τ).loc main_arg8) :=
  W8_keep m ρ c (by decide) (by decide) (by decide) (by decide) (by decide) (by decide) (by decide) (by decide)
theorem V8_arg9 : Gen.V8 (F := Ideal) m ρ c main_arg9 = m ((c : Thread nD τ).loc main_arg9) :=
  W8_keep m ρ c (by decide) (by decide) (by decide) (by decide) (by decide) (by decide) (by decide) (by decide)

/-- At the second call's entry the aggregate buffer holds the mean aggregation of the first call's result
    over the launched edge list. -/
theorem V7_agg : Gen.V7 (F := Ideal) m ρ c main_v44
    = meanAgg256 (Gen.V4 (F := Ideal) m ρ c main_v22) (m ((c : Thread nD τ).loc main_arg1)) :=
  calc Gen.V7 (F := Ideal) m ρ c main_v44
    _ = divRows256 (Gen.W6 (F := Ideal) m ρ c (Proc.devRef .tc main_v36)) (Gen.W6 (F := Ideal) m ρ c (Proc.devRef .tc main_v41)) :=
        s12_v44 _
    _ = divRows256 (Gen.W5 (F := Ideal) m ρ c (Proc.devRef .tc main_v36))
          (clipAt (Gen.W5 (F := Ideal) m ρ c (Proc.devRef .tc main_cst_9)) (Gen.W5 (F := Ideal) m ρ c (Proc.devRef .tc main_v40))) :=
        congrArg₂ divRows256 (keep1_1 _ (by decide)) (s11_v41 _)
    _ = divRows256 (scatterSum256 (Gen.W4 (F := Ideal) m ρ c (Proc.devRef .tc main_v22)) (Gen.W4 (F := Ideal) m ρ c (Proc.devRef .tc main_arg1)))
          (clipAt oneS (inCount (Gen.W4 (F := Ideal) m ρ c (Proc.devRef .tc main_arg1)))) :=
        congrArg₂ divRows256 (s1_v36 _) (congrArg₂ clipAt (s1_cst9 _) (s1_v40 _))
    _ = divRows256 (scatterSum256 (Gen.W4 (F := Ideal) m ρ c (Proc.devRef .tc main_v22)) (m ((c : Thread nD τ).loc main_arg1)))
          (clipAt oneS (inCount (m ((c : Thread nD τ).loc main_arg1)))) :=
        congrArg (fun e => divRows256 (scatterSum256 (Gen.W4 (F := Ideal) m ρ c (Proc.devRef .tc main_v22)) e) (clipAt oneS (inCount e)))
          (W4_keep m ρ c (by decide) (by decide) (by decide) (by decide))
    _ = meanAgg256 (Gen.V4 (F := Ideal) m ρ c main_v22) (m ((c : Thread nD τ).loc main_arg1)) := rfl

end Run

end Cert.Sage.KHost

end
-- ==== Proof.KNet.lean ====
/-
  The kernel program's result buffer holds the network function of its ten arguments.

  Walking the program's segments backwards from the result: the third grid leaves the head of the array the second grid
  wrote; the second grid leaves the second layer of the aggregate of the first grid's output and of that output; the
  host operations between the grids are the mean aggregation, taken as one function; the first grid leaves the first
  layer of the aggregate of the node features and of the node features; and no segment writes a weight array, a bias
  or the edge list, so each is read as launched.
-/
import proofs.«140325_j19155554140461_1_alg».proof.Proof.Gen.KernelIdeal.Frame
import proofs.«140325_j19155554140461_1_alg».proof.Proof.Net
import proofs.«140325_j19155554140461_1_alg».proof.Proof.KBlocks0
import proofs.«140325_j19155554140461_1_alg».proof.Proof.KBlocks1
import proofs.«140325_j19155554140461_1_alg».proof.Proof.KBlocks2
import proofs.«140325_j19155554140461_1_alg».proof.Proof.KHost

noncomputable section

namespace Cert.Sage.KNet

open Idealize.ShloMosaic Idealize.ShloMosaic.TcCoe Idealize.SL.Sem Cert.KernelIdeal

variable (m : (ℓ : Loc nD τ sig) → Buf (Elt Ideal) ℓ) (ρ : Dev nD → PrngReg) (c : Dev nD)

/-- The first grid's output array: the first layer of the arguments. -/
theorem h_eq : Gen.V4 (F := Ideal) m ρ c main_v22
    = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  refine (Gen.W4_arr m ρ c 5).trans ?_
  rw [KBlocks0.final (Gen.V3 m ρ) c, KHost.V3_agg, KHost.V3_arg0, KHost.V3_arg2, KHost.V3_arg3, KHost.V3_arg4]
  rfl

/-- The second grid's output array: the second layer of the first layer's output. -/
theorem z_eq : Gen.V8 (F := Ideal) m ρ c main_v45
    = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (Gen.W8_arr m ρ c 5).trans ?_
  rw [KBlocks1.final (Gen.V7 m ρ) c, KHost.V7_agg, KHost.V7_h, KHost.V7_arg5, KHost.V7_arg6, KHost.V7_arg7, h_eq]
  rfl

/-- The result buffer after the third grid: the network function of the ten arguments. -/
theorem result_eq : Gen.W9 (F := Ideal) m ρ c (Proc.devRef .tc main_v46)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (Gen.W9_arr m ρ c 3).trans ?_
  rw [KBlocks2.final (Gen.V8 m ρ) c, z_eq, KHost.V8_arg8, KHost.V8_arg9]
  rfl

end Cert.Sage.KNet

end
-- ==== Proof.RefNet.lean ====
/-
  The reference program's result is the network function of its ten arguments.

  The reference is a straight line of host operations.  Read one operation at a time, its result at an index `(p, e)`
  is: the mean aggregation of the node features (one chain of operations, taken as a single function of the node array
  and the edge list); a product with a transposed weight array, which at `(p, e)` is row `p` of the left operand
  against row `e` of the weight array; a bias vector repeated down the rows, which at `(p, e)` is the vector's entry
  `e`; two sums; and the maximum with zero.  The reference adds the bias BEFORE the second product where the network
  function adds it last: a sum of three extended reals does not depend on that order.  The second layer is the same
  with the first layer's output in place of the node features, and the head is one product and one bias.
-/
import proofs.«140325_j19155554140461_1_alg».proof.Proof.Gen.ReferenceIdeal.Read
import proofs.«140325_j19155554140461_1_alg».proof.Proof.Net

noncomputable section

open scoped BigOperators

namespace Cert.Sage.Ref

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The two aggregations are the shared chain -/

/-- The first aggregation is the shared chain applied to the node features. -/
theorem agg1_eq (x0 : (⟨S50000x128, .f32⟩ : BufTy).Contents (Elt Ideal)) (x1 : (⟨S2x800000, .i32⟩ : BufTy).Contents (Elt Ideal)) :
    val_main_v21 (F := Ideal) x0 x1 = Cert.Sage.meanAgg128 x0 x1 := rfl

/-- The second aggregation is the shared chain applied to the first layer's output. -/
theorem agg2_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v52 (F := Ideal) x0 x1 x2 x3 x4 = Cert.Sage.meanAgg256 (val_main_v30 (F := Ideal) x0 x1 x2 x3 x4) x1 := rfl

/-! ## The composed index maps at an index written by its coordinates

  A product's left operand is read at `(p, k)`, the transposed weight array at `(k, e)`, that is the weight array at
  `(e, k)`; the bias row repeated down the rows is read at `e`. -/

theorem lidx23 (p : Fin 50000) (e : Fin 256) (k : Fin 128) : lidx_main_v23 (ix2 p e) k = ix2 p k :=
  funext fun a => Fin.ext (by match a with | ⟨0, _⟩ => rfl | ⟨1, _⟩ => rfl)

theorem ridx23 (p : Fin 50000) (e : Fin 256) (k : Fin 128) : idx_main_v22 (ridx_main_v23 (ix2 p e) k) = ix2 e k :=
  funext fun a => Fin.ext (by match a with | ⟨0, _⟩ => rfl | ⟨1, _⟩ => rfl)

theorem lidx28 (p : Fin 50000) (e : Fin 256) (k : Fin 128) : lidx_main_v28 (ix2 p e) k = ix2 p k :=
  funext fun a => Fin.ext (by match a with | ⟨0, _⟩ => rfl | ⟨1, _⟩ => rfl)

theorem ridx28 (p : Fin 50000) (e : Fin 256) (k : Fin 128) : idx_main_v27 (ridx_main_v28 (ix2 p e) k) = ix2 e k :=
  funext fun a => Fin.ext (by match a with | ⟨0, _⟩ => rfl | ⟨1, _⟩ => rfl)

theorem bidx25 (p : Fin 50000) (e : Fin 256) : idx_main_v24 (idx_main_v25 (ix2 p e)) = ix1 e :=
  funext fun a => Fin.ext (by match a with | ⟨0, _⟩ => rfl)

/-! ## The first layer -/

/-- The aggregate times the transposed left weights, at `(p, e)`: row `p` of the aggregate against row `e` of the weights. -/
theorem dot23_at (x0 : (⟨S50000x128, .f32⟩ : BufTy).Contents (Elt Ideal)) (x1 : (⟨S2x800000, .i32⟩ : BufTy).Contents (Elt Ideal))
    (x2 : (⟨S256x128, .f32⟩ : BufTy).Contents (Elt Ideal)) (p : Fin 50000) (e : Fin 256) :
    val_main_v23 (F := Ideal) x0 x1 x2 (ix2 p e) = Cert.Sage.rowsDot (φ₁ := .f32) (φ₂ := .f32) (val_main_v21 (F := Ideal) x0 x1) x2 p e := by
  rw [val_main_v23_apply]
  generalize val_main_v21 (F := Ideal) x0 x1 = a
  unfold Cert.Sage.rowsDot
  refine Finset.sum_congr rfl fun k _ => ?_
  rw [val_main_v22_apply, lidx23, ridx23]

/-- The node features times the transposed right weights, at `(p, e)`. -/
theorem dot28_at (x0 : (⟨S50000x128, .f32⟩ : BufTy).Contents (Elt Ideal)) (x4 : (⟨S256x128, .f32⟩ : BufTy).Contents (Elt Ideal))
    (p : Fin 50000) (e : Fin 256) :
    val_main_v28 (F := Ideal) x0 x4 (ix2 p e) = Cert.Sage.rowsDot (φ₁ := .f32) (φ₂ := .f32) x0 x4 p e := by
  rw [val_main_v28_apply]
  unfold Cert.Sage.rowsDot
  refine Finset.sum_congr rfl fun k _ => ?_
  rw [val_main_v27_apply, lidx28, ridx28]

/-- The bias row repeated down the rows, at `(p, e)`: the bias at `e`. -/
theorem bias25_at (x3 : (⟨S256, .f32⟩ : BufTy).Contents (Elt Ideal)) (p : Fin 50000) (e : Fin 256) :
    val_main_v25 (F := Ideal) x3 (ix2 p e) = x3 (ix1 e) := by
  rw [val_main_v25_apply, val_main_v24_apply, bidx25]

/-- The rectifier's zero array, at any index: zero. -/
theorem zero1_at (i : S50000x256.Idx) : val_main_call1_v0 (F := Ideal) i = Ideal.ofBits .f32 0x00000000#32 := by
  rw [val_main_call1_v0_apply, val_main_call1_cst_apply]
  rfl

/-- The first layer at `(p, e)`: the reference adds the bias before the second product. -/
theorem h_at (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) (p : Fin 50000) (e : Fin 256) :
    val_main_v30 (F := Ideal) x0 x1 x2 x3 x4 (ix2 p e)
      = Cert.Sage.combineAt (val_main_v21 (F := Ideal) x0 x1) x0 x2 x3 x4 p e := by
  rw [val_main_v30_apply, val_main_v29_apply, val_main_v26_apply, dot23_at, bias25_at, dot28_at, zero1_at]
  exact Cert.Sage.combineAt_bias_first _ x0 x2 x3 x4 p e

/-- The first layer's output is the layer function of the aggregate, the node features and the first weights. -/
theorem h_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v30 (F := Ideal) x0 x1 x2 x3 x4 = Cert.Sage.combine (val_main_v21 (F := Ideal) x0 x1) x0 x2 x3 x4 := by
  funext i
  obtain ⟨p, e, rfl⟩ : ∃ (p : Fin 50000) (e : Fin 256), i = ix2 p e := ⟨i 0, i 1, eq_ix2 i⟩
  exact h_at x0 x1 x2 x3 x4 p e

/-! ## The second layer -/

theorem lidx54 (p : Fin 50000) (e : Fin 256) (k : Fin 256) : lidx_main_v54 (ix2 p e) k = ix2 p k :=
  funext fun a => Fin.ext (by match a with | ⟨0, _⟩ => rfl | ⟨1, _⟩ => rfl)

theorem ridx54 (p : Fin 50000) (e : Fin 256) (k : Fin 256) : idx_main_v53 (ridx_main_v54 (ix2 p e) k) = ix2 e k :=
  funext fun a => Fin.ext (by match a with | ⟨0, _⟩ => rfl | ⟨1, _⟩ => rfl)

theorem lidx59 (p : Fin 50000) (e : Fin 256) (k : Fin 256) : lidx_main_v59 (ix2 p e) k = ix2 p k :=
  funext fun a => Fin.ext (by match a with | ⟨0, _⟩ => rfl | ⟨1, _⟩ => rfl)

theorem ridx59 (p : Fin 50000) (e : Fin 256) (k : Fin 256) : idx_main_v58 (ridx_main_v59 (ix2 p e) k) = ix2 e k :=
  funext fun a => Fin.ext (by match a with | ⟨0, _⟩ => rfl | ⟨1, _⟩ => rfl)

theorem bidx56 (p : Fin 50000) (e : Fin 256) : idx_main_v55 (idx_main_v56 (ix2 p e)) = ix1 e :=
  funext fun a => Fin.ext (by match a with | ⟨0, _⟩ => rfl)

/-- The second aggregate times the transposed left weights, at `(p, e)`. -/
theorem dot54_at (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x5 : (⟨S256x256, .f32⟩ : BufTy).Contents (Elt Ideal)) (p : Fin 50000) (e : Fin 256) :
    val_main_v54 (F := Ideal) x0 x1 x2 x3 x4 x5 (ix2 p e)
      = Cert.Sage.rowsDot (φ₁ := .f32) (φ₂ := .f32) (val_main_v52 (F := Ideal) x0 x1 x2 x3 x4) x5 p e := by
  rw [val_main_v54_apply]
  generalize val_main_v52 (F := Ideal) x0 x1 x2 x3 x4 = a
  unfold Cert.Sage.rowsDot
  refine Finset.sum_congr rfl fun k _ => ?_
  rw [val_main_v53_apply, lidx54, ridx54]

/-- The first layer's output times the transposed right weights, at `(p, e)`. -/
theorem dot59_at (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x7 : (⟨S256x256, .f32⟩ : BufTy).Contents (Elt Ideal)) (p : Fin 50000) (e : Fin 256) :
    val_main_v59 (F := Ideal) x0 x1 x2 x3 x4 x7 (ix2 p e)
      = Cert.Sage.rowsDot (φ₁ := .f32) (φ₂ := .f32) (val_main_v30 (F := Ideal) x0 x1 x2 x3 x4) x7 p e := by
  rw [val_main_v59_apply]
  generalize val_main_v30 (F := Ideal) x0 x1 x2 x3 x4 = h
  unfold Cert.Sage.rowsDot
  refine Finset.sum_congr rfl fun k _ => ?_
  rw [val_main_v58_apply, lidx59, ridx59]

/-- The second bias row repeated down the rows, at `(p, e)`. -/
theorem bias56_at (x6 : (⟨S256, .f32⟩ : BufTy).Contents (Elt Ideal)) (p : Fin 50000) (e : Fin 256) :
    val_main_v56 (F := Ideal) x6 (ix2 p e) = x6 (ix1 e) := by
  rw [val_main_v56_apply, val_main_v55_apply, bidx56]

/-- The second rectifier's zero array, at any index. -/
theorem zero3_at (i : S50000x256.Idx) : val_main_call3_v0 (F := Ideal) i = Ideal.ofBits .f32 0x00000000#32 := by
  rw [val_main_call3_v0_apply, val_main_call3_cst_apply]
  rfl

/-- The second layer at `(p, e)`. -/
theorem z_at (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (p : Fin 50000) (e : Fin 256) :
    val_main_v61 (F := Ideal) x0 x1 x2 x3 x4 x5 x6 x7 (ix2 p e)
      = Cert.Sage.combineAt (val_main_v52 (F := Ideal) x0 x1 x2 x3 x4) (val_main_v30 (F := Ideal) x0 x1 x2 x3 x4) x5 x6 x7 p e := by
  rw [val_main_v61_apply, val_main_v60_apply, val_main_v57_apply, dot54_at, bias56_at, dot59_at, zero3_at]
  generalize val_main_v52 (F := Ideal) x0 x1 x2 x3 x4 = a
  generalize val_main_v30 (F := Ideal) x0 x1 x2 x3 x4 = h
  exact Cert.Sage.combineAt_bias_first a h x5 x6 x7 p e

/-- The second layer's output is the layer function of the second aggregate, the first layer's output and the second
    weights. -/
theorem z_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) :
    val_main_v61 (F := Ideal) x0 x1 x2 x3 x4 x5 x6 x7
      = Cert.Sage.combine (val_main_v52 (F := Ideal) x0 x1 x2 x3 x4) (val_main_v30 (F := Ideal) x0 x1 x2 x3 x4) x5 x6 x7 := by
  funext i
  obtain ⟨p, e, rfl⟩ : ∃ (p : Fin 50000) (e : Fin 256), i = ix2 p e := ⟨i 0, i 1, eq_ix2 i⟩
  exact z_at x0 x1 x2 x3 x4 x5 x6 x7 p e

/-! ## The head -/

theorem lidx63 (p : Fin 50000) (e : Fin 40) (k : Fin 256) : lidx_main_v63 (ix2 p e) k = ix2 p k :=
  funext fun a => Fin.ext (by match a with | ⟨0, _⟩ => rfl | ⟨1, _⟩ => rfl)

theorem ridx63 (p : Fin 50000) (e : Fin 40) (k : Fin 256) : idx_main_v62 (ridx_main_v63 (ix2 p e) k) = ix2 e k :=
  funext fun a => Fin.ext (by match a with | ⟨0, _⟩ => rfl | ⟨1, _⟩ => rfl)

theorem bidx65 (p : Fin 50000) (e : Fin 40) : idx_main_v64 (idx_main_v65 (ix2 p e)) = ix1 e :=
  funext fun a => Fin.ext (by match a with | ⟨0, _⟩ => rfl)

/-- The head at `(p, e)`: row `p` of the second layer's output against row `e` of the head's weights, plus the bias. -/
theorem out_at (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal))
    (x8 : (⟨S40x256, .f32⟩ : BufTy).Contents (Elt Ideal)) (x9 : (⟨S40, .f32⟩ : BufTy).Contents (Elt Ideal)) (p : Fin 50000) (e : Fin 40) :
    val_main_v66 (F := Ideal) x0 x1 x2 x3 x4 x5 x6 x7 x8 x9 (ix2 p e)
      = Cert.Sage.linearAt (val_main_v61 (F := Ideal) x0 x1 x2 x3 x4 x5 x6 x7) x8 x9 p e := by
  rw [val_main_v66_apply, val_main_v63_apply, val_main_v65_apply, val_main_v64_apply, bidx65]
  generalize val_main_v61 (F := Ideal) x0 x1 x2 x3 x4 x5 x6 x7 = z
  unfold Cert.Sage.linearAt Cert.Sage.rowsDot
  refine congrArg (· + x9 (ix1 e)) (Finset.sum_congr rfl fun k _ => ?_)
  rw [val_main_v62_apply, lidx63, ridx63]

/-- The reference's result is the head function of the second layer's output. -/
theorem out_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal))
    (x8 : (⟨S40x256, .f32⟩ : BufTy).Contents (Elt Ideal)) (x9 : (⟨S40, .f32⟩ : BufTy).Contents (Elt Ideal)) :
    val_main_v66 (F := Ideal) x0 x1 x2 x3 x4 x5 x6 x7 x8 x9
      = Cert.Sage.linear (val_main_v61 (F := Ideal) x0 x1 x2 x3 x4 x5 x6 x7) x8 x9 := by
  funext i
  obtain ⟨p, e, rfl⟩ : ∃ (p : Fin 50000) (e : Fin 40), i = ix2 p e := ⟨i 0, i 1, eq_ix2 i⟩
  exact out_at x0 x1 x2 x3 x4 x5 x6 x7 x8 x9 p e

/-! ## The interface -/

/-- The reference run's result buffer holds the network function of the ten argument arrays: the head of the second layer
    of the first layer, each aggregation the shared chain. -/
theorem result_eq (m : (ℓ : Loc nD τ sig) → Buf (Elt Ideal) ℓ) (c : Dev nD) :
    Cert.ReferenceIdeal.Value.res_main_v66 (F := Ideal) m c
      = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [val_main_v66_eq, out_eq, z_eq, agg2_eq, h_eq, agg1_eq]
  rfl

end Cert.Sage.Ref

end
-- ==== Proof.lean ====
/-
  A two-layer mean-aggregating graph convolution with a linear head, over 50000 nodes and 800000 edges: the kernel
  program against its reference, on the extended reals.

  Both programs compute, for node features `x`, an edge list, two layers' weights and biases and the head's:

      h   = relu (mean_agg(x) · w1lᵀ + x · w1rᵀ + b1l)
      z   = relu (mean_agg(h) · w2lᵀ + h · w2rᵀ + b2l)
      out = z · wcᵀ + bc

  where `mean_agg` gathers each edge's source row, sums the rows arriving at each node and divides by the number of
  arriving edges (at least one).  The kernel program does the aggregation with the same host operations as the reference and
  each dense layer in a grid of 25 kernel calls over blocks of 2000 rows, rounding the matrices to a narrower format
  before each product (the identity on the extended reals) and adding the bias AFTER the second product, where the
  reference adds it before: a sum of three extended reals does not depend on that order, and no other law is needed, so the
  finiteness of the inputs is never used.

  * The kernel program's run with its result named: `Cert.Sage.KRun.run_value`; its result is the network function
    `Cert.Sage.net` of the arguments: `Cert.Sage.KNet.result_eq` (the grids' blocks tile their arrays: `KBlocks0`, `KBlocks1`,
    `KBlocks2` over the bodies' stored values `KPay`; the host operations between them: `KHost`).
  * The reference's run is its generated run; its result is the same function of its arguments: `Cert.Sage.Ref.result_eq`.
  * The word-level kernel program's frame and the idealized one's are the generated frames; the idealization rewrote
    nothing, so `preserves` asks nothing.
-/
import proofs.«140325_j19155554140461_1_alg».proof.Defs
import proofs.«140325_j19155554140461_1_alg».proof.Proof.Gen.Kernel
import proofs.«140325_j19155554140461_1_alg».proof.Proof.Gen.Kernel.Skeleton
import proofs.«140325_j19155554140461_1_alg».proof.Proof.Gen.Kernel.Launch
import proofs.«140325_j19155554140461_1_alg».proof.Proof.Gen.Kernel.Points
import proofs.«140325_j19155554140461_1_alg».proof.Proof.Gen.Kernel.Frame
import proofs.«140325_j19155554140461_1_alg».proof.Proof.Gen.KernelIdeal
import proofs.«140325_j19155554140461_1_alg».proof.Proof.Gen.KernelIdeal.Skeleton
import proofs.«140325_j19155554140461_1_alg».proof.Proof.Gen.KernelIdeal.Launch
import proofs.«140325_j19155554140461_1_alg».proof.Proof.Gen.KernelIdeal.Points
import proofs.«140325_j19155554140461_1_alg».proof.Proof.Gen.KernelIdeal.Frame
import proofs.«140325_j19155554140461_1_alg».proof.Proof.Gen.ReferenceIdeal
import proofs.«140325_j19155554140461_1_alg».proof.Proof.Gen.Pre_finite_inputs
import proofs.«140325_j19155554140461_1_alg».proof.Proof.Gen.ReferenceIdeal.Run
import proofs.«140325_j19155554140461_1_alg».proof.Proof.Gen.ReferenceIdeal.Read
import proofs.«140325_j19155554140461_1_alg».proof.Proof.KRun
import proofs.«140325_j19155554140461_1_alg».proof.Proof.KNet
import proofs.«140325_j19155554140461_1_alg».proof.Proof.RefNet
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both programs end with the network function of those arguments in
    their result buffers, and with their arguments as launched. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Sage.KNet.result_eq m ρ c), (h c).2⟩)
      (Cert.Sage.KRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.Sage.Ref.result_eq m' c, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
